-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1000 : Shape := ⟨2, ![4096, 1000]⟩
abbrev S1000x16 : Shape := ⟨2, ![1000, 16]⟩
abbrev S_ : Shape := ⟨0, ![]⟩

class Facts : Prop where
  bcast_S_S4096x1000 : S_.BroadcastsInDim S4096x1000 (![] : Fin 0 → Fin S4096x1000.rank)
  reducesTo_S4096x1000_S_d0_1 : S4096x1000.ReducesTo [0, 1] S_
  h_S_ : 0 < S_.numel
  bcast_S_S1000x16 : S_.BroadcastsInDim S1000x16 (![] : Fin 0 → Fin S1000x16.rank)
  reducesTo_S1000x16_S_d0_1 : S1000x16.ReducesTo [0, 1] S_

variable [Facts]

def fn {F : FTy → Type} [FloatOps F] (main_arg0 : FVec F S4096x1000 .f32) (main_arg1 : FVec F S1000x16 .f32) : IVec S_ 1 :=
  let main_v0 : FVec F S4096x1000 .f32 := Host.absf main_arg0
  let main_cst : FVec F S_ .f32 := constant S_ .f32 0x7F800000#32
  let main_v1 : FVec F S4096x1000 .f32 := broadcastInDim S4096x1000 ![] bcast_S_S4096x1000 main_cst
  let main_v2 : IVec S4096x1000 1 := cmpf .olt main_v0 main_v1
  let main_c : IVec S_ 1 := constantI S_ 1 1#1
  let main_v3 : IVec S_ 1 := (fun x v => Host.reduce IntOp.andi x v reducesTo_S4096x1000_S_d0_1 h_S_) main_v2 main_c
  let main_v4 : FVec F S1000x16 .f32 := Host.absf main_arg1
  let main_cst_0 : FVec F S_ .f32 := constant S_ .f32 0x7F800000#32
  let main_v5 : FVec F S1000x16 .f32 := broadcastInDim S1000x16 ![] bcast_S_S1000x16 main_cst_0
  let main_v6 : IVec S1000x16 1 := cmpf .olt main_v4 main_v5
  let main_c_1 : IVec S_ 1 := constantI S_ 1 1#1
  let main_v7 : IVec S_ 1 := (fun x v => Host.reduce IntOp.andi x v reducesTo_S1000x16_S_d0_1 h_S_) main_v6 main_c_1
  let main_v8 : IVec S_ 1 := andi main_v3 main_v7
  main_v8
-- ==== Kernel.lean ====
abbrev S4096x1000 : Shape := ⟨2, ![4096, 1000]⟩
abbrev S1000x16 : Shape := ⟨2, ![1000, 16]⟩
abbrev S4096x16 : Shape := ⟨2, ![4096, 16]⟩
abbrev S2048x1000 : Shape := ⟨2, ![2048, 1000]⟩
abbrev S2048x16 : Shape := ⟨2, ![2048, 16]⟩

abbrev nBuf : Space → Nat
  | .hbm => 3
  | .vmem => 5
  | .smem => 0
  | _ => 0

abbrev bufTy : (tb : Table) → Fin (tcTables nBuf tb) → BufTy
  | .hbm, ⟨0, _⟩ => ⟨S4096x1000, .f32⟩
  | .hbm, ⟨1, _⟩ => ⟨S1000x16, .f32⟩
  | .hbm, ⟨2, _⟩ => ⟨S4096x16, .f32⟩
  | .local _ .vmem, ⟨0, _⟩ => ⟨S2048x1000, .f32⟩
  | .local _ .vmem, ⟨1, _⟩ => ⟨S2048x1000, .f32⟩
  | .local _ .vmem, ⟨2, _⟩ => ⟨S1000x16, .f32⟩
  | .local _ .vmem, ⟨3, _⟩ => ⟨S2048x16, .f32⟩
  | .local _ .vmem, ⟨4, _⟩ => ⟨S2048x16, .f32⟩
  | _, _ => ⟨S4096x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S2048x1000_S2048x1000_0_0 : ∀ a, (![0, 0] : Fin 2 → Nat) a + S2048x1000.size a ≤ S2048x1000.size a
  h_S2048x1000 : 0 < S2048x1000.numel
  inb_S1000x16_S1000x16_0_0 : ∀ a, (![0, 0] : Fin 2 → Nat) a + S1000x16.size a ≤ S1000x16.size a
  h_S1000x16 : 0 < S1000x16.numel
  inb_S2048x16_S2048x16_0_0 : ∀ a, (![0, 0] : Fin 2 → Nat) a + S2048x16.size a ≤ S2048x16.size a
  h_S2048x16 : 0 < S2048x16.numel
  dot_S2048x1000_S1000x16_S2048x16_1_0_0_1_n_n_wf : DotDims.WF S2048x1000 S1000x16 S2048x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1000.size a ≤ S4096x1000.size a
  hwx0_0 : ∀ i : grid0.Coords, EltTy.bits .f32 = 32 ∨ (Rect.block (s := S4096x1000) S2048x1000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x16.size a ≤ S1000x16.size a
  hwx0_1 : ∀ i : grid0.Coords, EltTy.bits .f32 = 32 ∨ (Rect.block (s := S1000x16) S1000x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x16.size a ≤ S4096x16.size a
  hwx0_2 : ∀ i : grid0.Coords, EltTy.bits .f32 = 32 ∨ (Rect.block (s := S4096x16) S2048x16.size (cc0_transform_2 i) (hinb0_2 i)).WholeWords (EltTy.packing .f32)

variable [Facts₀]

def dot_S2048x1000_S1000x16_S2048x16_1_0_0_1_n_n : DotDims S2048x1000 S1000x16 S2048x16 where
  lhsContracting := [1]
  rhsContracting := [0]
  lhsNonContracting := [0]
  rhsNonContracting := [1]
  lhsBatch := []
  rhsBatch := []
  wf := dot_S2048x1000_S1000x16_S2048x16_1_0_0_1_n_n_wf

abbrev win0_0 : Pipeline.Window sig grid0 :=
  Pipeline.Window.ofSpec (Memref.whole main_arg0) S2048x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x1000 : Shape := ⟨2, ![4096, 1000]⟩
abbrev S1000x16 : Shape := ⟨2, ![1000, 16]⟩
abbrev S1000 : Shape := ⟨1, ![1000]⟩
abbrev S1x1000 : Shape := ⟨2, ![1, 1000]⟩
abbrev S_ : Shape := ⟨0, ![]⟩
abbrev S4096x1000x1 : Shape := ⟨3, ![4096, 1000, 1]⟩
abbrev S1 : Shape := ⟨1, ![1]⟩
abbrev S1x1x1 : Shape := ⟨3, ![1, 1, 1]⟩
abbrev S4096x1000x16 : Shape := ⟨3, ![4096, 1000, 16]⟩
abbrev S4096x16 : Shape := ⟨2, ![4096, 16]⟩

abbrev nBuf : Space → Nat
  | .hbm => 37
  | .vmem => 0
  | .smem => 0
  | _ => 0

abbrev bufTy : (tb : Table) → Fin (tcTables nBuf tb) → BufTy
  | .hbm, ⟨0, _⟩ => ⟨S4096x1000, .f32⟩
  | .hbm, ⟨1, _⟩ => ⟨S1000x16, .f32⟩
  | .hbm, ⟨2, _⟩ => ⟨S4096x1000, .f32⟩
  | .hbm, ⟨3, _⟩ => ⟨S4096x1000, .f32⟩
  | .hbm, ⟨4, _⟩ => ⟨S4096x1000, .i32⟩
  | .hbm, ⟨5, _⟩ => ⟨S1000, .i32⟩
  | .hbm, ⟨6, _⟩ => ⟨S1x1000, .i32⟩
  | .hbm, ⟨7, _⟩ => ⟨S4096x1000, .i32⟩
  | .hbm, ⟨8, _⟩ => ⟨S4096x1000, .i32⟩
  | .hbm, ⟨9, _⟩ => ⟨S_, .i32⟩
  | .hbm, ⟨10, _⟩ => ⟨S4096x1000, .i32⟩
  | .hbm, ⟨11, _⟩ => ⟨S4096x1000, .i1⟩
  | .hbm, ⟨12, _⟩ => ⟨S_, .i32⟩
  | .hbm, ⟨13, _⟩ => ⟨S4096x1000, .i32⟩
  | .hbm, ⟨14, _⟩ => ⟨S4096x1000, .i32⟩
  | .hbm, ⟨15, _⟩ => ⟨S4096x1000, .i32⟩
  | .hbm, ⟨16, _⟩ => ⟨S4096x1000x1, .i32⟩
  | .hbm, ⟨17, _⟩ => ⟨S1, .i32⟩
  | .hbm, ⟨18, _⟩ => ⟨S_, .i32⟩
  | .hbm, ⟨19, _⟩ => ⟨S4096x1000x1, .i32⟩
  | .hbm, ⟨20, _⟩ => ⟨S4096x1000x1, .i1⟩
  | .hbm, ⟨21, _⟩ => ⟨S1x1x1, .i32⟩
  | .hbm, ⟨22, _⟩ => ⟨S4096x1000x1, .i32⟩
  | .hbm, ⟨23, _⟩ => ⟨S4096x1000x1, .i1⟩
  | .hbm, ⟨24, _⟩ => ⟨S4096x1000x1, .i1⟩
  | .hbm, ⟨25, _⟩ => ⟨S_, .i1⟩
  | .hbm, ⟨26, _⟩ => ⟨S4096x1000, .i1⟩
  | .hbm, ⟨27, _⟩ => ⟨S4096x1000x16, .f32⟩
  | .hbm, ⟨28, _⟩ => ⟨S4096x1000x16, .i1⟩
  | .hbm, ⟨29, _⟩ => ⟨S_, .f32⟩
  | .hbm, ⟨30, _⟩ => ⟨S4096x1000x16, .f32⟩
  | .hbm, ⟨31, _⟩ => ⟨S4096x1000x16, .f32⟩
  | .hbm, ⟨32, _⟩ => ⟨S4096x1000x1, .f32⟩
  | .hbm, ⟨33, _⟩ => ⟨S4096x1000x16, .f32⟩
  | .hbm, ⟨34, _⟩ => ⟨S4096x1000x16, .f32⟩
  | .hbm, ⟨35, _⟩ => ⟨S_, .f32⟩
  | .hbm, ⟨36, _⟩ => ⟨S4096x16, .f32⟩
  | _, _ => ⟨S4096x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst : Ref sig .tc := ⟨.hbm, 35, rfl⟩
abbrev main_v11 : Ref sig .tc := ⟨.hbm, 36, rfl⟩

abbrev nD : Nat := 1
abbrev τ : Topo := Topo.v7x

variable {F : FTy → Type} [FloatOps F]

class Facts₀ : Prop where
  bcast_S1000_S1x1000_1 : S1000.BroadcastsInDim S1x1000 (![1] : Fin 1 → Fin S1x1000.rank)
  bcast_S1x1000_S4096x1000_0_1 : S1x1000.BroadcastsInDim S4096x1000 (![0, 1] : Fin 2 → Fin S4096x1000.rank)
  bcast_S_S4096x1000 : S_.BroadcastsInDim S4096x1000 (![] : Fin 0 → Fin S4096x1000.rank)
  bcast_S4096x1000_S4096x1000x1_0_1 : S4096x1000.BroadcastsInDim S4096x1000x1 (![0, 1] : Fin 2 → Fin S4096x1000x1.rank)
  bcast_S_S4096x1000x1 : S_.BroadcastsInDim S4096x1000x1 (![] : Fin 0 → Fin S4096x1000x1.rank)
  bcast_S1_S1x1x1_2 : S1.BroadcastsInDim S1x1x1 (![2] : Fin 1 → Fin S1x1x1.rank)
  bcast_S1x1x1_S4096x1000x1_0_1_2 : S1x1x1.BroadcastsInDim S4096x1000x1 (![0, 1, 2] : Fin 3 → Fin S4096x1000x1.rank)
  reducesTo_S4096x1000x1_S4096x1000_d2 : S4096x1000x1.ReducesTo [2] S4096x1000
  h_S_ : 0 < S_.numel
  bcast_S4096x1000_S4096x1000x16_0_1 : S4096x1000.BroadcastsInDim S4096x1000x16 (![0, 1] : Fin 2 → Fin S4096x1000x16.rank)
  bcast_S_S4096x1000x16 : S_.BroadcastsInDim S4096x1000x16 (![] : Fin 0 → Fin S4096x1000x16.rank)
  bcast_S4096x1000x1_S4096x1000x16_0_1_2 : S4096x1000x1.BroadcastsInDim S4096x1000x16 (![0, 1, 2] : Fin 3 → Fin S4096x1000x16.rank)
  reducesTo_S4096x1000x16_S4096x16_d1 : S4096x1000x16.ReducesTo [1] S4096x16
  gather_S1000x16_S4096x1000x1_S4096x1000x16_2_0_n_n_0_2_116_wf : GatherDims.WF S1000x16 S4096x1000x1 S4096x1000x16 [2] [0] [] [0] [] 2 ![1, 16]

variable [Facts₀]

def gather_S1000x16_S4096x1000x1_S4096x1000x16_2_0_n_n_0_2_116 : GatherDims S1000x16 S4096x1000x1 S4096x1000x16 where
  offsetDims := [2]
  collapsedSliceDims := [0]
  operandBatchingDims := []
  startIndicesBatchingDims := []
  startIndexMap := [0]
  indexVectorDim := 2
  sliceSizes := ![1, 16]
  wf := gather_S1000x16_S4096x1000x1_S4096x1000x16_2_0_n_n_0_2_116_wf

class Facts : Prop extends Facts₀ where

variable [Facts]
-- ==== Proof.Words.lean ====
/-
  One entry of the weighted multi-hot lookup, on single values.

  For an input entry `x` (an extended real) in column `v` the reference takes table row

      hotRow x v = 0 if x = 0, else v

  (the integer `sign |x|`, which is 0 or 1, times the column number), wraps it as numpy wraps a negative index, tests
  it against the table's bounds and multiplies the taken entry by `x`.  Here: the integer word of `sign |x|`; the
  product with the column's word; that a word below 1000 is unchanged by the wrap, passes the bounds test and reads
  back, signed and clamped, as itself; and the one law that joins the two programs — the taken entry times `x` is `x`
  times the entry of row `v`, because at `x = 0` both products are zero and elsewhere the row IS `v`.
-/
import Idealize.ShloMosaic.PureOps.Ideal
import Idealize.ShloMosaic.PureOps.Ideal.Laws
import Idealize.ShloMosaic.Lib.ValueIdx
import Idealize.ShloMosaic.Lib.Affine

namespace Cert.HotRow

open Idealize.ShloMosaic Idealize.ShloMosaic.ValueIdx

/-- The dense product both programs compute: `out[b,d] = Σ_v x[b,v] · table[v,d]`, over the extended reals. -/
noncomputable def rowDot (x : (⟨2, ![4096, 1000]⟩ : Shape).Idx → EReal) (t : (⟨2, ![1000, 16]⟩ : Shape).Idx → EReal) :
    (⟨2, ![4096, 16]⟩ : Shape).Idx → EReal :=
  fun i => ∑ k : Fin 1000, x (ix2 (⟨(i 0).val, idx2_lt0 i⟩ : Fin 4096) k) * t (ix2 k (⟨(i 1).val, idx2_lt1 i⟩ : Fin 16))

/-- Entry (b, d) of the dense product. -/
theorem rowDot_apply (x : (⟨2, ![4096, 1000]⟩ : Shape).Idx → EReal) (t : (⟨2, ![1000, 16]⟩ : Shape).Idx → EReal)
    (b : Fin 4096) (d : Fin 16) : rowDot x t (ix2 b d) = ∑ k : Fin 1000, x (ix2 b k) * t (ix2 k d) := rfl

/-- The table row an entry `x` of column `v` takes. -/
noncomputable def hotRow (x : EReal) (v : ℕ) : ℕ := if x = 0 then 0 else v

theorem hotRow_le (x : EReal) (v : ℕ) : hotRow x v ≤ v := by
  unfold hotRow; split <;> omega

theorem hotRow_of_ne {x : EReal} (h : x ≠ 0) (v : ℕ) : hotRow x v = v := if_neg h

/-- The integers 0 and 1, as extended reals, convert to the words 0 and 1. -/
theorem fptosi_zero : Ideal.fptosi 32 (0 : EReal) = 0#32 := by
  rw [← EReal.coe_zero, Ideal.fptosi, Ideal.toIntClamped_coe]; norm_num
theorem fptosi_one : Ideal.fptosi 32 (1 : EReal) = 1#32 := by
  rw [← EReal.coe_one, Ideal.fptosi, Ideal.toIntClamped_coe]; norm_num

/-- `int(sign |x|)`: the word 0 at zero, the word 1 everywhere else (the infinities included: `|±∞| = ∞ > 0`). -/
theorem hot_word (x : EReal) :
    Ideal.fptosi 32 (Ideal.sign (max x (-x))) = if x = 0 then 0#32 else 1#32 := by
  by_cases h : x = 0
  · subst h
    rw [if_pos rfl, neg_zero, max_self, Ideal.sign_zero, fptosi_zero]
  · rw [if_neg h, Ideal.sign_of_pos ((Ideal.zero_lt_max_neg_iff x).mpr h), fptosi_one]

/-- Times the column's word: the word of the row taken. -/
theorem row_word (x : EReal) (v : ℕ) :
    IntOp.muli (Ideal.fptosi 32 (Ideal.sign (max x (-x)))) (BitVec.ofNat 32 v) = BitVec.ofNat 32 (hotRow x v) := by
  rw [hot_word]
  unfold hotRow IntOp.muli
  split
  · rw [BitVec.zero_mul]
  · rw [BitVec.one_mul]

/-- A word below 1000 read as a signed integer is the number. -/
theorem toInt_small {n : ℕ} (h : n < 1000) : (BitVec.ofNat 32 n).toInt = (n : Int) := by
  have h1 : (BitVec.ofNat 32 n).toNat = n := by rw [BitVec.toNat_ofNat]; omega
  rw [BitVec.toInt_eq_toNat_of_lt (by rw [h1]; omega), h1]

/-- numpy's negative-index wrap leaves it alone. -/
theorem wrap_small {n : ℕ} (h : n < 1000) :
    Scalar.select (IntOp.cmpi .slt (BitVec.ofNat 32 n) 0#32) (IntOp.addi (BitVec.ofNat 32 n) 1000#32) (BitVec.ofNat 32 n)
      = BitVec.ofNat 32 n := by
  have e : IntOp.cmpi .slt (BitVec.ofNat 32 n) 0#32 = 0#1 := by
    apply eq_zero_of_ne_one
    rw [IntOp.cmpi_slt, toInt_small h, BitVec.toInt_zero]
    omega
  rw [e, select_zero]

/-- It passes the take's bounds test `0 ≤ · ≤ 999`. -/
theorem inb_small {n : ℕ} (h : n < 1000) :
    IntOp.andi (IntOp.cmpi .sge (BitVec.ofNat 32 n) 0#32) (IntOp.cmpi .sle (BitVec.ofNat 32 n) 999#32) = 1#1 := by
  have e1 : IntOp.cmpi .sge (BitVec.ofNat 32 n) 0#32 = 1#1 := by
    rw [IntOp.cmpi_sge, toInt_small h, BitVec.toInt_zero]; omega
  have e2 : IntOp.cmpi .sle (BitVec.ofNat 32 n) 999#32 = 1#1 := by
    rw [IntOp.cmpi_sle, toInt_small h, toInt_small (by omega : 999 < 1000)]; omega
  rw [e1, e2]; rfl

/-- Read signed and clamped into the table's rows it is the number. -/
theorem clamp_small {n : ℕ} (h : n < 1000) : min (BitVec.ofNat 32 n).toInt.toNat (1000 - 1) = n := by
  rw [toInt_small h]; omega

/-- A conjunction over ONE bit, started from true, is the bit. -/
theorem andi_one_bit (b : BitVec 1) : IntOp.andi 1#1 b = b := by
  revert b; decide
theorem andi_bit_one (b : BitVec 1) : IntOp.andi b 1#1 = b := by
  revert b; decide

/-- A conjunction over an axis of ONE position, started from true, is the one bit there. -/
theorem fold_and_unit (g : Fin 1 → BitVec 1) :
    Finset.fold IntOp.andi (1#1 : BitVec 1) g (Finset.univ : Finset (Fin 1)) = g 0 := by
  rw [Finset.univ_unique, Finset.fold_singleton]
  exact andi_bit_one _

/-- THE LAW JOINING THE TWO PROGRAMS: an entry `a` taken at the hot row, weighted by `x`, is `x` times the entry `b` of
    the column's own row — at `x = 0` both products vanish (`a · 0 = 0 = 0 · b` on every extended real), and
    elsewhere the hot row is the column's own, `a = b`, and the product commutes. -/
theorem weighted_eq (x a b : EReal) (h : x ≠ 0 → a = b) : a * x = x * b := by
  by_cases hx : x = 0
  · subst hx; rw [mul_zero, zero_mul]
  · rw [h hx, mul_comm]

end Cert.HotRow
-- ==== Proof.KernelValue.lean ====
/-
  The kernel's result array is the dense product.

  The grid has two points; point `t` stages rows [2048·t, 2048·t + 2048) of the input (all 1000 columns) and the whole
  table, multiplies them into a zero accumulator and writes the [2048, 16] product back as rows [2048·t, 2048·t + 2048)
  of the result.  At the extended reals a matrix product into zero, read at (p, q), is Σ_k lhs(p,k)·rhs(k,q); row p of
  block t is row 2048·t + p of the array; the two blocks tile the 4096 rows.  So after the run the result array is
  `rowDot` of the two argument arrays: out[b,d] = Σ_v x[b,v]·table[v,d].
-/
import proofs.«161487_g11630771438334_week1_w4_1134_12_alg».proof.Proof.Gen.KernelIdeal.Value
import proofs.«161487_g11630771438334_week1_w4_1134_12_alg».proof.Proof.Words
import Idealize.ShloMosaic.PureOps.Ideal.Laws
import Idealize.ShloMosaic.Lib.ValueIdx
import Idealize.ShloMosaic.Lib.Pipeline.Value

set_option maxRecDepth 16384

noncomputable section

namespace Cert.KernelIdeal.Dense

open Cert.KernelIdeal Cert.KernelIdeal.Gen Cert.KernelIdeal.Value Idealize.ShloMosaic Idealize.ShloMosaic.TcCoe Idealize.SL.Sem
open Idealize.ShloMosaic.ValueIdx Cert.HotRow
open Idealize.ShloMosaic.Pipeline (Dat)

/-! ## The product at an entry -/

/-- The operands' indices of the product at output (i, ·) and contraction position q: the left operand's row is the
    output's row and its column the contraction position; the right operand's row is the contraction position and its
    column the output's. -/
theorem lhs_row (i : S2048x16.Idx) (q : dot_S2048x1000_S1000x16_S2048x16_1_0_0_1_n_n.contr.Idx) : (dot_S2048x1000_S1000x16_S2048x16_1_0_0_1_n_n.lhsIdx i q 0).val = (i 0).val := by
  unfold DotDims.lhsIdx
  rw [dif_neg (show ¬(0 : Fin S2048x1000.rank) ∈ dot_S2048x1000_S1000x16_S2048x16_1_0_0_1_n_n.lhsBatch by decide), dif_pos (show (0 : Fin S2048x1000.rank) ∈ dot_S2048x1000_S1000x16_S2048x16_1_0_0_1_n_n.lhsNonContracting by decide)]
  rfl
theorem lhs_col (i : S2048x16.Idx) (q : dot_S2048x1000_S1000x16_S2048x16_1_0_0_1_n_n.contr.Idx) : (dot_S2048x1000_S1000x16_S2048x16_1_0_0_1_n_n.lhsIdx i q 1).val = (q ⟨0, by decide⟩).val :=
  dot_S2048x1000_S1000x16_S2048x16_1_0_0_1_n_n.lhsIdx_val_of_single rfl i q
theorem rhs_row (i : S2048x16.Idx) (q : dot_S2048x1000_S1000x16_S2048x16_1_0_0_1_n_n.contr.Idx) : (dot_S2048x1000_S1000x16_S2048x16_1_0_0_1_n_n.rhsIdx i q 0).val = (q ⟨0, by decide⟩).val :=
  dot_S2048x1000_S1000x16_S2048x16_1_0_0_1_n_n.rhsIdx_val_of_single rfl i q
theorem rhs_col (i : S2048x16.Idx) (q : dot_S2048x1000_S1000x16_S2048x16_1_0_0_1_n_n.contr.Idx) : (dot_S2048x1000_S1000x16_S2048x16_1_0_0_1_n_n.rhsIdx i q 1).val = (i 1).val := by
  unfold DotDims.rhsIdx
  rw [dif_neg (show ¬(1 : Fin S1000x16.rank) ∈ dot_S2048x1000_S1000x16_S2048x16_1_0_0_1_n_n.rhsBatch by decide), dif_pos (show (1 : Fin S1000x16.rank) ∈ dot_S2048x1000_S1000x16_S2048x16_1_0_0_1_n_n.rhsNonContracting by decide)]
  rfl

/-- The body's one payload — the product of the two staged blocks into a zero accumulator — at entry (p, q) is the
    sum over the 1000 columns of left(p, k) · right(k, q). -/
theorem pay_apply (x0 : FVec Ideal S2048x1000 .f32) (x1 : FVec Ideal S1000x16 .f32) (p : Fin 2048) (q : Fin 16) :
    k0_pay1 x0 x1 (ix2 p q) = ∑ k : Fin 1000, x0 (ix2 p k) * x1 (ix2 k q) := by
  unfold k0_pay1
  refine (Ideal.matmul_constant_zero_apply dot_S2048x1000_S1000x16_S2048x16_1_0_0_1_n_n none x0 x1 (ix2 p q)).trans ?_
  rw [← Equiv.sum_comp (contrEquiv1 dot_S2048x1000_S1000x16_S2048x16_1_0_0_1_n_n 1000 rfl rfl).symm]
  refine Finset.sum_congr rfl fun k _ => ?_
  have hk := contrEquiv1_symm_val dot_S2048x1000_S1000x16_S2048x16_1_0_0_1_n_n 1000 rfl rfl k
  have el : dot_S2048x1000_S1000x16_S2048x16_1_0_0_1_n_n.lhsIdx (ix2 p q) ((contrEquiv1 dot_S2048x1000_S1000x16_S2048x16_1_0_0_1_n_n 1000 rfl rfl).symm k) = ix2 p k := funext fun a => Fin.ext (by
    match a with
    | ⟨0, _⟩ => exact lhs_row _ _
    | ⟨1, _⟩ => exact (lhs_col _ _).trans hk)
  have er : dot_S2048x1000_S1000x16_S2048x16_1_0_0_1_n_n.rhsIdx (ix2 p q) ((contrEquiv1 dot_S2048x1000_S1000x16_S2048x16_1_0_0_1_n_n 1000 rfl rfl).symm k) = ix2 k q := funext fun a => Fin.ext (by
    match a with
    | ⟨0, _⟩ => exact (rhs_row _ _).trans hk
    | ⟨1, _⟩ => exact rhs_col _ _)
  rw [el, er]

/-! ## From blocks to the array -/

/-- A product of two array entries moves along equations between the entries' indices. -/
theorem mul_at {X : S4096x1000.Idx → EReal} {T : S1000x16.Idx → EReal} {i0 i0' : S4096x1000.Idx} {i1 i1' : S1000x16.Idx}
    (h0 : i0 = i0') (h1 : i1 = i1') : X i0 * T i1 = X i0' * T i1' := by rw [h0, h1]

variable (m : (ℓ : Loc nD τ sig) → Buf (Elt Ideal) ℓ) (ρ : Dev nD → PrngReg)

theorem zero_offsets : (![0, 0] : Fin 2 → Nat) = fun _ => 0 := funext fun a => by fin_cases a <;> rfl

/-- The index maps over the two grid points: the input's row block is the output's, the point's number; every other
    block index is zero. -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 1 :=
  (by decide +kernel : ∀ t : Fin grid0.N, _)

/-- Each of the two row blocks is some point's. -/
theorem block_onto : ∀ (q0 : Fin 2), ∃ t : Fin cfg0.N, win0_2.index t = ![q0.val, 0] :=
  (by decide +kernel : ∀ (q0 : Fin 2), ∃ t : Fin grid0.N, win0_2.index t = ![q0.val, 0])

/-- WHAT POINT `t` WRITES BACK is block `t` of the dense product of the two argument arrays. -/
theorem flushed_eq (c : Dev nD) (t : Fin cfg0.N) :
    (dats m 0 c).flushed 2 t = ((cfg0.win 2).blk t).view.read (Elt Ideal) (rowDot (V m c main_arg0) (V m c main_arg1)) := by
  rw [flushed2]
  unfold out0_2
  rw [View.canon_unit_zero zero_offsets]
  simp only [View.ld_unit_zero (S := S2048x1000) zero_offsets, View.ld_unit_zero (S := S1000x16) zero_offsets]
  obtain ⟨e0, e1, e2, e3, e4, e5⟩ := block_indices t
  funext j
  obtain ⟨p, q, rfl⟩ : ∃ (p : Fin 2048) (q : Fin 16), j = ix2 p q := ⟨j 0, j 1, eq_ix2 j⟩
  show k0_pay1 (iblk m c 0 t) (iblk m c 1 t) (ix2 p q)
    = rowDot (V m c main_arg0) (V m c main_arg1) (((cfg0.win 2).blk t).view.emb (ix2 p q))
  refine (pay_apply _ _ p q).trans ?_
  unfold rowDot
  refine Finset.sum_congr rfl fun k _ => ?_
  have h0 : ((cfg0.win 0).blk t).view.emb (ix2 p k)
      = ix2 (⟨((((cfg0.win 2).blk t).view.emb (ix2 p q)) 0).val, idx2_lt0 _⟩ : Fin 4096) k := by
    funext a; apply Fin.ext
    match a with
    | ⟨0, _⟩ => show win0_0.index t (0 : Fin 2) * 2048 + 1 * p.val = win0_2.index t (0 : Fin 2) * 2048 + 1 * p.val; omega
    | ⟨1, _⟩ => show win0_0.index t (1 : Fin 2) * 1000 + 1 * k.val = k.val; omega
  have h1 : ((cfg0.win 1).blk t).view.emb (ix2 k q)
      = ix2 k (⟨((((cfg0.win 2).blk t).view.emb (ix2 p q)) 1).val, idx2_lt1 _⟩ : Fin 16) := by
    funext a; apply Fin.ext
    match a with
    | ⟨0, _⟩ => show win0_1.index t (0 : Fin 2) * 1000 + 1 * k.val = k.val; omega
    | ⟨1, _⟩ => show win0_1.index t (1 : Fin 2) * 16 + 1 * q.val = win0_2.index t (1 : Fin 2) * 16 + 1 * q.val; omega
  exact mul_at (X := V m c main_arg0) (T := V m c main_arg1) h0 h1

/-- An index of the result array is in point `t`'s block iff each coordinate is in the block's range on its axis. -/
theorem mem_block (t : Fin cfg0.N) (i : S4096x16.Idx) :
    i ∈ ((cfg0.win 2).blk t).view.set ↔ ∀ a : Fin 2, win0_2.index t a * S2048x16.size a ≤ (i a).val ∧ (i a).val < win0_2.index t a * S2048x16.size a + S2048x16.size a := by
  show i ∈ ((View.whole main_v0).slice (win0_2.rect t)).set ↔ _
  rw [View.set_slice_whole, Rect.mem_set_unit]
  exact Iff.rfl

/-- Every entry of the result array is in some point's block: row `r` in the block of point `r / 2048`. -/
theorem covered (i : S4096x16.Idx) : ∃ t : Fin cfg0.N, (cfg0.win 2).flush t = true ∧ i ∈ ((cfg0.win 2).blk t).view.set := by
  have hi0 : (i 0).val < 4096 := (i 0).isLt
  have hi1 : (i 1).val < 16 := (i 1).isLt
  obtain ⟨t, ht⟩ := block_onto ⟨(i 0).val / 2048, by omega⟩
  have q0 : win0_2.index t (0 : Fin 2) = (i 0).val / 2048 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 16 ≤ (i 1).val ∧ (i 1).val < win0_2.index t (1 : Fin 2) * 16 + 16; omega

/-- THE RESULT ARRAY after the run is the dense product of the two argument arrays. -/
theorem final (c : Dev nD) :
    (dats m 0 c).arrAt 2 cfg0.N = rowDot (m ((c : Thread nD τ).loc main_arg0)) (m ((c : Thread nD τ).loc main_arg1)) :=
  (dats m 0 c).arrAt_eq_of_cover 2 (rowDot (V m c main_arg0) (V m c main_arg1)) (fun t _ => flushed_eq m c t) covered

/-- Every weakly fair execution of the kernel program terminates with the result array at the dense product of the
    argument arrays and the arguments unchanged. -/
theorem run : θ_run defs (onTc (τ := τ) (main (F := Ideal))) ⟨m, fun _ => 0, ρ⟩ fun r => ∀ c : Dev nD,
      r.2.mem ((c : Thread nD τ).loc main_v0) = rowDot (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Dense

end
-- ==== Proof.RefOps.lean ====
/-
  The reference's straight line.  The jnp reference is @main with one outlined helper (the take, itself calling the
  where): written out here as ONE list of 35 host operations over the call's buffers, the helper's lines standing where
  the call stands.  From that list: every weakly fair execution ends, nothing faults, the two arguments are unchanged,
  and the result array holds `refTerm` of the arguments —

      hotIdx x    = int(sign |x|) · v                          the row to take: v where x[b,v] ≠ 0, else 0
      wrapIdx i   = (i < 0 ? i + 1000 : i) as a [B,V,1] column   numpy's negative-index wrap
      inRange j   = all over the unit axis of (0 ≤ j ≤ 999)      the fill mask of an out-of-bounds take
      taken t j   = inRange ? table[j, :] : fill
      refTerm x t = 0 + Σ_v taken(t, …)[b,v,d] · x[b,v]

  stated for every float instance.  This module holds the term, the list and the run over the list's fold; that the
  fold at the result buffer is the term is the next module's.
-/
import proofs.«161487_g11630771438334_week1_w4_1134_12_alg».proof.Proof.Gen.ReferenceIdeal
import Idealize.ShloMosaic.Lib.StableHlo.Run

noncomputable section

namespace Cert.ReferenceIdeal.Straight

open Cert.ReferenceIdeal Cert.ReferenceIdeal.Gen Idealize.ShloMosaic Idealize.ShloMosaic.TcCoe Idealize.SL.Sem Idealize.ShloMosaic.StableHlo

variable {F : FTy → Type} [FloatOps F]

/-! ## The result as one term of the two arguments -/

/-- The row each (b, v) takes: the integer `sign |x[b,v]|` (0 or 1) times the column number `v`. -/
def hotIdx (x : FVec F S4096x1000 .f32) : IVec S4096x1000 32 :=
  muli (fptosi 32 (Host.sign (Host.absf x)))
    (broadcastInDim S4096x1000 ![0, 1] bcast_S1x1000_S4096x1000_0_1
      (broadcastInDim S1x1000 ![1] bcast_S1000_S1x1000_1 (iotaInDim S1000 32 0)))

/-- The take's index normalisation: a negative index has the table's height added; then a trailing unit axis. -/
def wrapIdx (i : IVec S4096x1000 32) : IVec S4096x1000x1 32 :=
  broadcastInDim S4096x1000x1 ![0, 1] bcast_S4096x1000_S4096x1000x1_0_1
    (select (cmpi .slt i (broadcastInDim S4096x1000 ![] bcast_S_S4096x1000 (constantI S_ 32 0#32)))
      (addi i (broadcastInDim S4096x1000 ![] bcast_S_S4096x1000 (constantI S_ 32 1000#32))) i)

/-- The take's bounds mask: every component of the index vector (there is one) lies in [0, 999]. -/
def inRange (j : IVec S4096x1000x1 32) : IVec S4096x1000 1 :=
  Host.reduce IntOp.andi
    (andi (cmpi .sge j (broadcastInDim S4096x1000x1 ![] bcast_S_S4096x1000x1 (constantI S_ 32 0#32)))
      (cmpi .sle j (broadcastInDim S4096x1000x1 ![0, 1, 2] bcast_S1x1x1_S4096x1000x1_0_1_2
        (broadcastInDim S1x1x1 ![2] bcast_S1_S1x1x1_2 (constantI S1 32 999#32)))))
    (constantI S_ 1 1#1) reducesTo_S4096x1000x1_S4096x1000_d2 h_S_

/-- The take: the table's row at the index where the mask holds, the fill value elsewhere. -/
def taken (t : FVec F S1000x16 .f32) (j : IVec S4096x1000x1 32) : FVec F S4096x1000x16 .f32 :=
  select (broadcastInDim S4096x1000x16 ![0, 1] bcast_S4096x1000_S4096x1000x16_0_1 (inRange j))
    (Host.gather gather_S1000x16_S4096x1000x1_S4096x1000x16_2_0_n_n_0_2_116 t j)
    (broadcastInDim S4096x1000x16 ![] bcast_S_S4096x1000x16 (constant S_ .f32 0x7FC00000#32))

/-- The reference's result: the taken rows weighted by the input and summed over the vocabulary axis from zero. -/
def refTerm (x : FVec F S4096x1000 .f32) (t : FVec F S1000x16 .f32) : FVec F S4096x16 .f32 :=
  Host.reduceAdd
    (mulf (taken t (wrapIdx (hotIdx x)))
      (broadcastInDim S4096x1000x16 ![0, 1, 2] bcast_S4096x1000x1_S4096x1000x16_0_1_2
        (broadcastInDim S4096x1000x1 ![0, 1] bcast_S4096x1000_S4096x1000x1_0_1 x)))
    (constant S_ .f32 0x00000000#32) reducesTo_S4096x1000x16_S4096x16_d1 h_S_

/-! ## @main as a list of operations -/

/-- @main's 35 operations in order: seven of its own, the take's twenty-three (the where's select in its place), five more. -/
abbrev ops : List (HloOp τ sig (Elt F)) :=
  [ unary main_arg0 main_v0 (Host.absf : (⟨S4096x1000, .f32⟩ : BufTy).Contents (Elt F) → (⟨S4096x1000, .f32⟩ : BufTy).Contents (Elt F)),
    unary main_v0 main_v1 (Host.sign : (⟨S4096x1000, .f32⟩ : BufTy).Contents (Elt F) → (⟨S4096x1000, .f32⟩ : BufTy).Contents (Elt F)),
    unary main_v1 main_v2 (fptosi 32 : (⟨S4096x1000, .f32⟩ : BufTy).Contents (Elt F) → (⟨S4096x1000, .i32⟩ : BufTy).Contents (Elt F)),
    nullary main_v3 (iotaInDim S1000 32 0),
    unary main_v3 main_v4 (broadcastInDim S1x1000 ![1] bcast_S1000_S1x1000_1 : (⟨S1000, .i32⟩ : BufTy).Contents (Elt F) → (⟨S1x1000, .i32⟩ : BufTy).Contents (Elt F)),
    unary main_v4 main_v5 (broadcastInDim S4096x1000 ![0, 1] bcast_S1x1000_S4096x1000_0_1 : (⟨S1x1000, .i32⟩ : BufTy).Contents (Elt F) → (⟨S4096x1000, .i32⟩ : BufTy).Contents (Elt F)),
    binary main_v2 main_v5 main_v6 (muli : (⟨S4096x1000, .i32⟩ : BufTy).Contents (Elt F) → (⟨S4096x1000, .i32⟩ : BufTy).Contents (Elt F) → (⟨S4096x1000, .i32⟩ : BufTy).Contents (Elt F)),
    nullary main_call0_c (constantI S_ 32 0#32 : (⟨S_, .i32⟩ : BufTy).Contents (Elt F)),
    unary main_call0_c main_call0_v0 (broadcastInDim S4096x1000 ![] bcast_S_S4096x1000 : (⟨S_, .i32⟩ : BufTy).Contents (Elt F) → (⟨S4096x1000, .i32⟩ : BufTy).Contents (Elt F)),
    binary main_v6 main_call0_v0 main_call0_v1 (cmpi .slt : (⟨S4096x1000, .i32⟩ : BufTy).Contents (Elt F) → (⟨S4096x1000, .i32⟩ : BufTy).Contents (Elt F) → (⟨S4096x1000, .i1⟩ : BufTy).Contents (Elt F)),
    nullary main_call0_c_0 (constantI S_ 32 1000#32 : (⟨S_, .i32⟩ : BufTy).Contents (Elt F)),
    unary main_call0_c_0 main_call0_v2 (broadcastInDim S4096x1000 ![] bcast_S_S4096x1000 : (⟨S_, .i32⟩ : BufTy).Contents (Elt F) → (⟨S4096x1000, .i32⟩ : BufTy).Contents (Elt F)),
    binary main_v6 main_call0_v2 main_call0_v3 (addi : (⟨S4096x1000, .i32⟩ : BufTy).Contents (Elt F) → (⟨S4096x1000, .i32⟩ : BufTy).Contents (Elt F) → (⟨S4096x1000, .i32⟩ : BufTy).Contents (Elt F)),
    ternary main_call0_v1 main_call0_v3 main_v6 main_call0_v4 (select : (⟨S4096x1000, .i1⟩ : BufTy).Contents (Elt F) → (⟨S4096x1000, .i32⟩ : BufTy).Contents (Elt F) → (⟨S4096x1000, .i32⟩ : BufTy).Contents (Elt F) → (⟨S4096x1000, .i32⟩ : BufTy).Contents (Elt F)),
    unary main_call0_v4 main_call0_v5 (broadcastInDim S4096x1000x1 ![0, 1] bcast_S4096x1000_S4096x1000x1_0_1 : (⟨S4096x1000, .i32⟩ : BufTy).Contents (Elt F) → (⟨S4096x1000x1, .i32⟩ : BufTy).Contents (Elt F)),
    nullary main_call0_c_1 (constantI S1 32 999#32 : (⟨S1, .i32⟩ : BufTy).Contents (Elt F)),
    nullary main_call0_c_2 (constantI S_ 32 0#32 : (⟨S_, .i32⟩ : BufTy).Contents (Elt F)),
    unary main_call0_c_2 main_call0_v6 (broadcastInDim S4096x1000x1 ![] bcast_S_S4096x1000x1 : (⟨S_, .i32⟩ : BufTy).Contents (Elt F) → (⟨S4096x1000x1, .i32⟩ : BufTy).Contents (Elt F)),
    binary main_call0_v5 main_call0_v6 main_call0_v7 (cmpi .sge : (⟨S4096x1000x1, .i32⟩ : BufTy).Contents (Elt F) → (⟨S4096x1000x1, .i32⟩ : BufTy).Contents (Elt F) → (⟨S4096x1000x1, .i1⟩ : BufTy).Contents (Elt F)),
    unary main_call0_c_1 main_call0_v8 (broadcastInDim S1x1x1 ![2] bcast_S1_S1x1x1_2 : (⟨S1, .i32⟩ : BufTy).Contents (Elt F) → (⟨S1x1x1, .i32⟩ : BufTy).Contents (Elt F)),
    unary main_call0_v8 main_call0_v9 (broadcastInDim S4096x1000x1 ![0, 1, 2] bcast_S1x1x1_S4096x1000x1_0_1_2 : (⟨S1x1x1, .i32⟩ : BufTy).Contents (Elt F) → (⟨S4096x1000x1, .i32⟩ : BufTy).Contents (Elt F)),
    binary main_call0_v5 main_call0_v9 main_call0_v10 (cmpi .sle : (⟨S4096x1000x1, .i32⟩ : BufTy).Contents (Elt F) → (⟨S4096x1000x1, .i32⟩ : BufTy).Contents (Elt F) → (⟨S4096x1000x1, .i1⟩ : BufTy).Contents (Elt F)),
    binary main_call0_v7 main_call0_v10 main_call0_v11 (andi : (⟨S4096x1000x1, .i1⟩ : BufTy).Contents (Elt F) → (⟨S4096x1000x1, .i1⟩ : BufTy).Contents (Elt F) → (⟨S4096x1000x1, .i1⟩ : BufTy).Contents (Elt F)),
    nullary main_call0_c_3 (constantI S_ 1 1#1 : (⟨S_, .i1⟩ : BufTy).Contents (Elt F)),
    binary main_call0_v11 main_call0_c_3 main_call0_v12 ((fun x v => Host.reduce IntOp.andi x v reducesTo_S4096x1000x1_S4096x1000_d2 h_S_) : (⟨S4096x1000x1, .i1⟩ : BufTy).Contents (Elt F) → (⟨S_, .i1⟩ : BufTy).Contents (Elt F) → (⟨S4096x1000, .i1⟩ : BufTy).Contents (Elt F)),
    binary main_arg1 main_call0_v5 main_call0_v13 ((fun x i => Host.gather gather_S1000x16_S4096x1000x1_S4096x1000x16_2_0_n_n_0_2_116 x i) : (⟨S1000x16, .f32⟩ : BufTy).Contents (Elt F) → (⟨S4096x1000x1, .i32⟩ : BufTy).Contents (Elt F) → (⟨S4096x1000x16, .f32⟩ : BufTy).Contents (Elt F)),
    unary main_call0_v12 main_call0_v14 (broadcastInDim S4096x1000x16 ![0, 1] bcast_S4096x1000_S4096x1000x16_0_1 : (⟨S4096x1000, .i1⟩ : BufTy).Contents (Elt F) → (⟨S4096x1000x16, .i1⟩ : BufTy).Contents (Elt F)),
    nullary main_call0_cst (constant S_ .f32 0x7FC00000#32 : (⟨S_, .f32⟩ : BufTy).Contents (Elt F)),
    unary main_call0_cst main_call0_v15 (broadcastInDim S4096x1000x16 ![] bcast_S_S4096x1000x16 : (⟨S_, .f32⟩ : BufTy).Contents (Elt F) → (⟨S4096x1000x16, .f32⟩ : BufTy).Contents (Elt F)),
    ternary main_call0_v14 main_call0_v13 main_call0_v15 main_v7 (select : (⟨S4096x1000x16, .i1⟩ : BufTy).Contents (Elt F) → (⟨S4096x1000x16, .f32⟩ : BufTy).Contents (Elt F) → (⟨S4096x1000x16, .f32⟩ : BufTy).Contents (Elt F) → (⟨S4096x1000x16, .f32⟩ : BufTy).Contents (Elt F)),
    unary main_arg0 main_v8 (broadcastInDim S4096x1000x1 ![0, 1] bcast_S4096x1000_S4096x1000x1_0_1 : (⟨S4096x1000, .f32⟩ : BufTy).Contents (Elt F) → (⟨S4096x1000x1, .f32⟩ : BufTy).Contents (Elt F)),
    unary main_v8 main_v9 (broadcastInDim S4096x1000x16 ![0, 1, 2] bcast_S4096x1000x1_S4096x1000x16_0_1_2 : (⟨S4096x1000x1, .f32⟩ : BufTy).Contents (Elt F) → (⟨S4096x1000x16, .f32⟩ : BufTy).Contents (Elt F)),
    binary main_v7 main_v9 main_v10 (mulf : (⟨S4096x1000x16, .f32⟩ : BufTy).Contents (Elt F) → (⟨S4096x1000x16, .f32⟩ : BufTy).Contents (Elt F) → (⟨S4096x1000x16, .f32⟩ : BufTy).Contents (Elt F)),
    nullary main_cst (constant S_ .f32 0x00000000#32),
    binary main_v10 main_cst main_v11 ((fun x v => Host.reduceAdd x v reducesTo_S4096x1000x16_S4096x16_d1 h_S_) : (⟨S4096x1000x16, .f32⟩ : BufTy).Contents (Elt F) → (⟨S_, .f32⟩ : BufTy).Contents (Elt F) → (⟨S4096x16, .f32⟩ : BufTy).Contents (Elt F)) ]

attribute [local irreducible] Host.reduce Host.reduceAdd Host.gather in
set_option maxRecDepth 16384 in
/-- @main is that straight line: the helpers' bodies unfolded where they are called, the sequencing reassociated; a
    helper's line carries each value along the equation between its type and its buffer's type, which at these literal
    buffers is the identity. -/
theorem main_eq (c : Dev nD) : main (F := F) c = seq ops := by
  simp only [main, fn_take.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., unary_bufs_sub .., nullary_bufs_sub .., unary_bufs_sub .., unary_bufs_sub ..,
    binary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., unary_bufs_sub .., binary_bufs_sub .., nullary_bufs_sub .., binary_bufs_sub ..⟩

/-- Every weakly fair execution of the reference terminates, and every buffer ends at the fold of the 35 operations over
    the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

end Cert.ReferenceIdeal.Straight

end
-- ==== Proof.RefRun.lean ====
/-
  The reference's result is `refTerm` of its arguments.  Each of the 35 operations writes its own buffer and reads
  earlier ones, so the fold of the list at the result buffer unrolls, operation by operation, to the composed term; the
  two argument buffers are written by no operation.
-/
import proofs.«161487_g11630771438334_week1_w4_1134_12_alg».proof.Proof.RefOps

noncomputable section

namespace Cert.ReferenceIdeal.Straight

open Cert.ReferenceIdeal Cert.ReferenceIdeal.Gen Idealize.ShloMosaic Idealize.ShloMosaic.TcCoe Idealize.SL.Sem Idealize.ShloMosaic.StableHlo

variable {F : FTy → Type} [FloatOps F]

/-- The fold of the 35 operations at the result buffer is `refTerm` of the arguments' contents. -/
theorem out_eq (V : Valuation τ sig (Elt F)) :
    after ops V (main_v11 : DevRef τ sig) = refTerm (V (main_arg0 : DevRef τ sig)) (V (main_arg1 : DevRef τ sig)) := by
  after_results_simp
  unfold refTerm taken inRange wrapIdx hotIdx
  rfl

/-- No operation writes the first argument. -/
theorem arg0_eq (V : Valuation τ sig (Elt F)) :
    after ops V (main_arg0 : DevRef τ sig) = V (main_arg0 : DevRef τ sig) := by
  after_results_simp

/-- No operation writes the second argument. -/
theorem arg1_eq (V : Valuation τ sig (Elt F)) :
    after ops V (main_arg1 : DevRef τ sig) = V (main_arg1 : DevRef τ sig) := by
  after_results_simp

/-- On every device, for any float values, from any memory with zero counters: every weakly fair execution of the
    reference terminates with the result array at `refTerm` of the two argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v11)
          = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v11).trans (out_eq _), (h c main_arg0).trans (arg0_eq _), (h c main_arg1).trans (arg1_eq _)⟩)
    (run_fold m ρ)

end Cert.ReferenceIdeal.Straight

end
-- ==== Proof.RefLayout.lean ====
/-
  The reference's pieces read at an index (extended reals for the floats, 32-bit words for the indices).

  For one (b, v): the column numbers broadcast to the word of v; `hotIdx` is the word of the hot row (0 where
  x[b,v] = 0, else v), which is below 1000, so the negative-index wrap leaves it alone, the bounds mask over the index
  vector's one component is true, the gather — which reads its start index signed and clamped into the table's rows —
  reads table row `hotRow`, and the select keeps the gathered entry (the fill value is never chosen).  The weight is
  the input broadcast along the embedding axis.
-/
import proofs.«161487_g11630771438334_week1_w4_1134_12_alg».proof.Proof.RefOps
import proofs.«161487_g11630771438334_week1_w4_1134_12_alg».proof.Proof.Words
import Idealize.ShloMosaic.PureOps.Ideal.Laws
import Idealize.ShloMosaic.PureOps.Reduce
import Idealize.ShloMosaic.Lib.ValueIdx
import Idealize.ShloMosaic.Lib.IdealHost
import Idealize.ShloMosaic.Lib.Pipeline.Value

noncomputable section

namespace Cert.ReferenceIdeal.Entries

open Cert.ReferenceIdeal Cert.ReferenceIdeal.Gen Cert.ReferenceIdeal.Straight Idealize.ShloMosaic
open Idealize.ShloMosaic.ValueIdx Cert.HotRow

/-- The two reductions' shape facts in the form that names the inserted coordinate. -/
theorem red_vocab : S4096x1000x16.Reduces [1] S4096x16 := by decide
theorem red_unit : S4096x1000x1.Reduces [2] S4096x1000 := by decide

/-! ## Layout: the broadcasts at an index -/

/-- The column numbers, broadcast over the rows: entry (b, v) is the word of v. -/
theorem col_word (b : Fin 4096) (v : Fin 1000) :
    broadcastInDim S4096x1000 ![0, 1] bcast_S1x1000_S4096x1000_0_1
      (broadcastInDim S1x1000 ![1] bcast_S1000_S1x1000_1 (iotaInDim S1000 32 0)) (ix2 b v) = BitVec.ofNat 32 v.val := by
  refine (broadcastInDim_apply _ _ _ (ix2 b v) (ix2 (0 : Fin 1) v) (fun a => by
    match a with
    | ⟨0, _⟩ => rfl
    | ⟨1, _⟩ => rfl)).trans ?_
  refine (broadcastInDim_apply _ _ _ (ix2 (0 : Fin 1) v) (ix1 v) (fun a => by
    match a with
    | ⟨0, _⟩ => rfl)).trans ?_
  rfl

/-- An [B,V] array given a trailing unit axis: entry (b, v, 0) is entry (b, v). -/
theorem unit_axis_apply {α : Type} (I : S4096x1000.Idx → α) (b : Fin 4096) (v : Fin 1000) :
    broadcastInDim S4096x1000x1 ![0, 1] bcast_S4096x1000_S4096x1000x1_0_1 I (ix3 b v (0 : Fin 1)) = I (ix2 b v) :=
  broadcastInDim_apply _ _ _ (ix3 b v (0 : Fin 1)) (ix2 b v) (fun a => by
    match a with
    | ⟨0, _⟩ => rfl
    | ⟨1, _⟩ => rfl)

/-- An [B,V] array broadcast along the embedding axis: entry (b, v, d) is entry (b, v). -/
theorem embed_axis_apply {α : Type} (I : S4096x1000.Idx → α) (b : Fin 4096) (v : Fin 1000) (d : Fin 16) :
    broadcastInDim S4096x1000x16 ![0, 1] bcast_S4096x1000_S4096x1000x16_0_1 I (ix3 b v d) = I (ix2 b v) :=
  broadcastInDim_apply _ _ _ (ix3 b v d) (ix2 b v) (fun a => by
    match a with
    | ⟨0, _⟩ => rfl
    | ⟨1, _⟩ => rfl)

/-- The weight: the input with a unit axis, broadcast along the embedding axis; entry (b, v, d) is x[b,v]. -/
theorem weight_apply {α : Type} (x : S4096x1000.Idx → α) (b : Fin 4096) (v : Fin 1000) (d : Fin 16) :
    broadcastInDim S4096x1000x16 ![0, 1, 2] bcast_S4096x1000x1_S4096x1000x16_0_1_2
      (broadcastInDim S4096x1000x1 ![0, 1] bcast_S4096x1000_S4096x1000x1_0_1 x) (ix3 b v d) = x (ix2 b v) := by
  refine (broadcastInDim_apply _ _ _ (ix3 b v d) (ix3 b v (0 : Fin 1)) (fun a => by
    match a with
    | ⟨0, _⟩ => rfl
    | ⟨1, _⟩ => rfl
    | ⟨2, _⟩ => rfl)).trans ?_
  exact unit_axis_apply x b v

/-! ## The index of the take -/

/-- The row taken at (b, v), as a word: the hot row of x[b,v]. -/
theorem hotIdx_apply (x : FVec Ideal S4096x1000 .f32) (b : Fin 4096) (v : Fin 1000) :
    hotIdx x (ix2 b v) = BitVec.ofNat 32 (hotRow (x (ix2 b v)) v.val) := by
  unfold hotIdx
  show IntOp.muli (Ideal.fptosi 32 (Ideal.sign (max (x (ix2 b v)) (-(x (ix2 b v))))))
      (broadcastInDim S4096x1000 ![0, 1] bcast_S1x1000_S4096x1000_0_1
        (broadcastInDim S1x1000 ![1] bcast_S1000_S1x1000_1 (iotaInDim S1000 32 0)) (ix2 b v)) = _
  rw [col_word, row_word]

/-- The wrapped index at (b, v, 0): a word below 1000 is left alone. -/
theorem wrapIdx_apply (I : IVec S4096x1000 32) (b : Fin 4096) (v : Fin 1000) (n : ℕ) (hn : n < 1000)
    (hI : I (ix2 b v) = BitVec.ofNat 32 n) : wrapIdx I (ix3 b v (0 : Fin 1)) = BitVec.ofNat 32 n := by
  unfold wrapIdx
  refine (unit_axis_apply _ b v).trans ?_
  show Scalar.select (IntOp.cmpi .slt (I (ix2 b v)) 0#32) (IntOp.addi (I (ix2 b v)) 1000#32) (I (ix2 b v)) = _
  rw [hI, wrap_small hn]

/-- The bounds mask at (b, v): the conjunction, over the index vector's one component, of 0 ≤ · ≤ 999 — true for a word
    below 1000. -/
theorem inRange_apply (J : IVec S4096x1000x1 32) (b : Fin 4096) (v : Fin 1000) (n : ℕ) (hn : n < 1000)
    (hJ : J (ix3 b v (0 : Fin 1)) = BitVec.ofNat 32 n) : inRange J (ix2 b v) = 1#1 := by
  unfold inRange
  rw [Host.reduce_eq_fold_single IntOp.andi _ _ reducesTo_S4096x1000x1_S4096x1000_d2 red_unit h_S_ (ix2 b v)]
  refine (fold_and_unit _).trans ?_
  have hl : red_unit.lift (ix2 b v) (0 : Fin 1) = ix3 b v (0 : Fin 1) := funext fun a => Fin.ext (by
    match a with
    | ⟨0, _⟩ => rfl
    | ⟨1, _⟩ => rfl
    | ⟨2, _⟩ => rfl)
  show IntOp.andi (IntOp.cmpi .sge (J (red_unit.lift (ix2 b v) (0 : Fin 1))) 0#32)
      (IntOp.cmpi .sle (J (red_unit.lift (ix2 b v) (0 : Fin 1))) 999#32) = 1#1
  rw [hl, hJ, inb_small hn]

/-! ## The gather -/

/-- The gather at (b, v, d): the table at the row its start index names — read signed and clamped into [0, 999] — and
    column d. -/
theorem gather_apply (t : S1000x16.Idx → EReal) (J : IVec S4096x1000x1 32) (b : Fin 4096) (v : Fin 1000) (d : Fin 16)
    (n : ℕ) (hn : n < 1000) (hJ : J (ix3 b v (0 : Fin 1)) = BitVec.ofNat 32 n) :
    Host.gather gather_S1000x16_S4096x1000x1_S4096x1000x16_2_0_n_n_0_2_116 t J (ix3 b v d) = t (ix2 (⟨n, hn⟩ : Fin 1000) d) := by
  have hsi : gather_S1000x16_S4096x1000x1_S4096x1000x16_2_0_n_n_0_2_116.siIdx (ix3 b v d) ⟨List.idxOf (0 : Fin S1000x16.rank) gather_S1000x16_S4096x1000x1_S4096x1000x16_2_0_n_n_0_2_116.startIndexMap,
      List.idxOf_lt_length_iff.2 (List.mem_singleton.mpr rfl)⟩ = ix3 b v (0 : Fin 1) := by
    funext c; refine Fin.ext ?_
    match c with
    | ⟨0, _⟩ => rfl
    | ⟨1, _⟩ => rfl
    | ⟨2, _⟩ => rfl
  -- the table's row: the start index, clamped; no batching, no offset on the collapsed axis
  have e0 : gather_S1000x16_S4096x1000x1_S4096x1000x16_2_0_n_n_0_2_116.start (ix3 b v d) J (0 : Fin S1000x16.rank) + gather_S1000x16_S4096x1000x1_S4096x1000x16_2_0_n_n_0_2_116.batchCoord (ix3 b v d) (0 : Fin S1000x16.rank)
      + gather_S1000x16_S4096x1000x1_S4096x1000x16_2_0_n_n_0_2_116.offCoord (ix3 b v d) (0 : Fin S1000x16.rank) = n := by
    rw [GatherDims.batchCoord_eq_zero _ _ _ (show (0 : Fin S1000x16.rank) ∉ ([] : List (Fin S1000x16.rank)) from List.not_mem_nil),
      GatherDims.offCoord_eq_zero _ _ _ (fun h => ((GatherDims.mem_sKept _ _).mp h).1 (List.mem_singleton.mpr rfl))]
    unfold GatherDims.start
    rw [dif_pos (show (0 : Fin S1000x16.rank) ∈ gather_S1000x16_S4096x1000x1_S4096x1000x16_2_0_n_n_0_2_116.startIndexMap from List.mem_singleton.mpr rfl), hsi, hJ]
    show min (BitVec.ofNat 32 n).toInt.toNat (1000 - 1) + 0 + 0 = n
    rw [clamp_small hn]
    rfl
  -- the table's column: the result's offset coordinate; the start index map does not name it
  have e1 : gather_S1000x16_S4096x1000x1_S4096x1000x16_2_0_n_n_0_2_116.start (ix3 b v d) J (1 : Fin S1000x16.rank) + gather_S1000x16_S4096x1000x1_S4096x1000x16_2_0_n_n_0_2_116.batchCoord (ix3 b v d) (1 : Fin S1000x16.rank)
      + gather_S1000x16_S4096x1000x1_S4096x1000x16_2_0_n_n_0_2_116.offCoord (ix3 b v d) (1 : Fin S1000x16.rank) = d.val := by
    rw [GatherDims.batchCoord_eq_zero _ _ _ (show (1 : Fin S1000x16.rank) ∉ ([] : List (Fin S1000x16.rank)) from List.not_mem_nil)]
    unfold GatherDims.start
    rw [dif_neg (show (1 : Fin S1000x16.rank) ∉ gather_S1000x16_S4096x1000x1_S4096x1000x16_2_0_n_n_0_2_116.startIndexMap by decide)]
    unfold GatherDims.offCoord
    rw [dif_pos (show (1 : Fin S1000x16.rank) ∈ gather_S1000x16_S4096x1000x1_S4096x1000x16_2_0_n_n_0_2_116.sKept by decide)]
    simp only [Nat.zero_add]
    rfl
  unfold Host.gather
  refine congrArg t ?_
  funext a
  refine Fin.ext ?_
  match a with
  | ⟨0, _⟩ => exact e0
  | ⟨1, _⟩ => exact e1

/-- The take at (b, v, d) with an in-range index: the mask holds, so it is the gathered entry. -/
theorem taken_apply (t : FVec Ideal S1000x16 .f32) (J : IVec S4096x1000x1 32) (b : Fin 4096) (v : Fin 1000) (d : Fin 16)
    (n : ℕ) (hn : n < 1000) (hJ : J (ix3 b v (0 : Fin 1)) = BitVec.ofNat 32 n) :
    taken t J (ix3 b v d) = t (ix2 (⟨n, hn⟩ : Fin 1000) d) := by
  unfold taken
  show Scalar.select (broadcastInDim S4096x1000x16 ![0, 1] bcast_S4096x1000_S4096x1000x16_0_1 (inRange J) (ix3 b v d))
      (Host.gather gather_S1000x16_S4096x1000x1_S4096x1000x16_2_0_n_n_0_2_116 t J (ix3 b v d)) _ = _
  rw [embed_axis_apply, inRange_apply J b v n hn hJ, select_one, gather_apply t J b v d n hn hJ]

/-! ## The sum over the vocabulary axis -/

/-- The reference's last reduction, over the vocabulary axis from a zero initial value, of ANY [B, V, D] array: entry
    (b, d) is the sum over v of the array at (b, v, d). -/
theorem sum_vocab (M : FVec Ideal S4096x1000x16 .f32) (b : Fin 4096) (d : Fin 16) :
    Host.reduceAdd M (constant (F := Ideal) S_ .f32 0x00000000#32) reducesTo_S4096x1000x16_S4096x16_d1 h_S_ (ix2 b d)
      = ∑ k : Fin 1000, M (ix3 b k d) := by
  rw [hostReduceAdd_apply, Ideal.hostReduceAdd_single reducesTo_S4096x1000x16_S4096x16_d1 red_vocab]
  show Ideal.ofBits .f32 0x00000000#32 + ∑ k : Fin 1000, M (red_vocab.lift (ix2 b d) k) = _
  rw [Ideal.ofBits_zero_f32, zero_add]
  refine Finset.sum_congr rfl fun k _ => congrArg M ?_
  exact funext fun a => Fin.ext (by
    match a with
    | ⟨0, _⟩ => rfl
    | ⟨1, _⟩ => rfl
    | ⟨2, _⟩ => rfl)

end Cert.ReferenceIdeal.Entries

end
-- ==== Proof.RefRead.lean ====
/-
  The reference's result, entry by entry, is the dense product.

  Entry (b, d) of `refTerm x t` is 0 + Σ_v taken(b, v, d) · x[b,v]; the take at (b, v, d) is table[hotRow, d]
  (RefLayout), the weight x[b,v], and table[hotRow, d] · x[b,v] = x[b,v] · table[v, d] on every extended real
  (Words).  So the sum is Σ_v x[b,v] · table[v, d].
-/
import proofs.«161487_g11630771438334_week1_w4_1134_12_alg».proof.Proof.RefLayout

noncomputable section

namespace Cert.ReferenceIdeal.Entries

open Cert.ReferenceIdeal Cert.ReferenceIdeal.Gen Cert.ReferenceIdeal.Straight Idealize.ShloMosaic
open Idealize.ShloMosaic.ValueIdx Cert.HotRow

attribute [local irreducible] taken inRange wrapIdx hotIdx in
/-- THE REFERENCE'S RESULT IS THE DENSE PRODUCT: entry (b, d) is Σ_v table[hotRow, d] · x[b,v], and each term is
    x[b,v] · table[v, d]. -/
theorem refTerm_eq (x : FVec Ideal S4096x1000 .f32) (t : FVec Ideal S1000x16 .f32) : refTerm x t = rowDot x t := by
  funext i
  obtain ⟨b, d, rfl⟩ : ∃ (b : Fin 4096) (d : Fin 16), i = ix2 b d := ⟨i 0, i 1, eq_ix2 i⟩
  unfold refTerm
  refine (sum_vocab _ b d).trans ?_
  refine ((rowDot_apply x t b d).trans ?_).symm
  refine Finset.sum_congr rfl fun k _ => ?_
  have hn : hotRow (x (ix2 b k)) k.val < 1000 := lt_of_le_of_lt (hotRow_le _ _) k.isLt
  refine ((mulf_apply _ _ _).trans ?_).symm
  rw [weight_apply, taken_apply t _ b k d _ hn (wrapIdx_apply _ b k _ hn (hotIdx_apply x b k))]
  exact weighted_eq _ _ _ fun hx => congrArg t (congrArg (fun r => ix2 r d) (Fin.ext (hotRow_of_ne hx k.val)))

end Cert.ReferenceIdeal.Entries

end
-- ==== Proof.lean ====
/-
  A weighted multi-hot embedding lookup against a dense product.

  Inputs: x : f32[4096, 1000] (one weight per batch row and vocabulary column) and a table : f32[1000, 16].
  The reference takes, for every (b, v), table row  v · int(sign |x[b,v]|)  — row v where x[b,v] ≠ 0, row 0 where it
  is zero — multiplies the taken row by x[b,v] and sums over v:

      ref[b,d] = 0 + Σ_v table[hot(b,v), d] · x[b,v],        hot(b,v) = 0 if x[b,v] = 0, else v.

  The kernel is the matrix product of x with the table, two row blocks of 2048 at a time:

      ker[b,d] = Σ_v x[b,v] · table[v, d].

  On the extended reals the two agree term by term: where x[b,v] = 0 both terms are 0 (a · 0 = 0 = 0 · a for every
  extended real a, the infinities included), and elsewhere hot(b,v) = v and the product commutes.  No cancellation or
  distribution is used, so the finiteness of the inputs is never opened.  The take's out-of-bounds fill (a NaN
  pattern) is never selected: the row taken is 0 or v, both inside [0, 999].

  Modules: Words (the law on single values and the dense product `rowDot`), KernelValue (the kernel's result array is
  `rowDot` of its arguments: the product at an entry, block t is rows 2048·t …, the blocks tile the array), RefOps and
  RefRun (the reference's @main as a list of 35 host operations, its run, its result as one term of the arguments),
  RefLayout (the reference's broadcasts, index wrap, bounds mask and gather read at an index) and RefRead (that term,
  entry by entry, is `rowDot`).  The frames of the two kernel programs are the generated ones; the
  reference's frame is its run with the result dropped; the idealization rewrote nothing.
-/
import proofs.«161487_g11630771438334_week1_w4_1134_12_alg».proof.Defs
import proofs.«161487_g11630771438334_week1_w4_1134_12_alg».proof.Proof.Gen.Kernel
import proofs.«161487_g11630771438334_week1_w4_1134_12_alg».proof.Proof.Gen.Kernel.Skeleton
import proofs.«161487_g11630771438334_week1_w4_1134_12_alg».proof.Proof.Gen.Kernel.Launch
import proofs.«161487_g11630771438334_week1_w4_1134_12_alg».proof.Proof.Gen.Kernel.Points
import proofs.«161487_g11630771438334_week1_w4_1134_12_alg».proof.Proof.Gen.Kernel.Frame
import proofs.«161487_g11630771438334_week1_w4_1134_12_alg».proof.Proof.Gen.KernelIdeal
import proofs.«161487_g11630771438334_week1_w4_1134_12_alg».proof.Proof.Gen.KernelIdeal.Skeleton
import proofs.«161487_g11630771438334_week1_w4_1134_12_alg».proof.Proof.Gen.KernelIdeal.Launch
import proofs.«161487_g11630771438334_week1_w4_1134_12_alg».proof.Proof.Gen.KernelIdeal.Points
import proofs.«161487_g11630771438334_week1_w4_1134_12_alg».proof.Proof.Gen.KernelIdeal.Frame
import proofs.«161487_g11630771438334_week1_w4_1134_12_alg».proof.Proof.Gen.KernelIdeal.Value
import proofs.«161487_g11630771438334_week1_w4_1134_12_alg».proof.Proof.Gen.ReferenceIdeal
import proofs.«161487_g11630771438334_week1_w4_1134_12_alg».proof.Proof.Gen.Pre_finite_inputs
import proofs.«161487_g11630771438334_week1_w4_1134_12_alg».proof.Proof.KernelValue
import proofs.«161487_g11630771438334_week1_w4_1134_12_alg».proof.Proof.RefRun
import proofs.«161487_g11630771438334_week1_w4_1134_12_alg».proof.Proof.RefRead
import Idealize.ShloMosaic.Adequacy
import Idealize.ShloMosaic.Init

noncomputable section

namespace Cert.Proof

open Idealize.ShloMosaic Idealize.ShloMosaic.TcCoe Idealize.SL.Sem

/-- The kernel program as printed runs and leaves its arguments alone. -/
theorem frame_kernel : Cert.frame_Kernel := fun m ρ _ => Cert.Kernel.Gen.frame m ρ

/-- So does its reading at the extended reals. -/
theorem frame_kernel_ideal : Cert.frame_KernelIdeal := fun m ρ _ => Cert.KernelIdeal.Gen.frame m ρ

/-- The reference runs and leaves its arguments alone: its run, the result dropped. -/
theorem frame_reference_ideal : Cert.frame_ReferenceIdeal := fun m ρ _ =>
  (θ_run Cert.ReferenceIdeal.defs _ _).mono (fun _ h c => (h c).2) (Cert.ReferenceIdeal.Straight.run (F := Ideal) m ρ)

/-- The idealization rewrote no operation. -/
theorem preserves : Cert.preserves_Kernel_KernelIdeal := trivial

/-- From memories that agree on the two arguments both programs end with the dense product of the arguments in their
    result arrays: the kernel's by its blocks, the reference's because each taken-and-weighted term is the product's. -/
theorem algebraic : Cert.algebraic_KernelIdeal_ReferenceIdeal := by
  intro m ρ m' ρ' _ hagree
  refine ⟨_, Cert.KernelIdeal.Dense.run m ρ, ?_⟩
  refine (θ_run Cert.ReferenceIdeal.defs _ _).mono (fun _ h c => ⟨(h c).1.trans ?_, (h c).2⟩)
    (Cert.ReferenceIdeal.Straight.run (F := Ideal) m' ρ')
  rw [(hagree c).1, (hagree c).2]
  exact Cert.ReferenceIdeal.Entries.refTerm_eq _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
